-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128x2 .f32) (main_arg9 : FVec F S2 .f32) (main_arg10 : FVec F S128x1 .f32) (main_arg11 : FVec F S1 .f32) (main_v33 : IVec S_ 1) : IVec S_ 1 :=
  let main_v34 : FVec F S128x2 .f32 := Host.absf main_arg8
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128x128 .f32) (main_arg6 : FVec F S128 .f32) (main_arg7 : FVec F S128x128 .f32) (main_arg8 : FVec F S128x2 .f32) (main_arg9 : FVec F S2 .f32) (main_arg10 : FVec F S128x1 .f32) (main_arg11 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x2 .f32) (main_arg9 : FVec F S2 .f32) (main_arg10 : FVec F S128x1 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S2000x128 : Shape := ⟨2, ![2000, 128]⟩
abbrev S1x128 : Shape := ⟨2, ![1, 128]⟩
abbrev S50000x2 : Shape := ⟨2, ![50000, 2]⟩
abbrev S50000x1 : Shape := ⟨2, ![50000, 1]⟩
abbrev S2000x2 : Shape := ⟨2, ![2000, 2]⟩
abbrev S2000x1 : Shape := ⟨2, ![2000, 1]⟩
abbrev S1x2 : Shape := ⟨2, ![1, 2]⟩
abbrev S1x1 : Shape := ⟨2, ![1, 1]⟩

abbrev nBuf : Space → Nat
  | .hbm => 45
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x2, .f32⟩
  | .hbm, ⟨9, _⟩ => ⟨S2, .f32⟩
  | .hbm, ⟨10, _⟩ => ⟨S128x1, .f32⟩
  | .hbm, ⟨11, _⟩ => ⟨S1, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S50000x128, .f32⟩
  | .hbm, ⟨27, _⟩ => ⟨S600000x1, .i32⟩
  | .hbm, ⟨28, _⟩ => ⟨S50000x128, .f32⟩
  | .hbm, ⟨29, _⟩ => ⟨S50000x128, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S_, .f32⟩
  | .hbm, ⟨40, _⟩ => ⟨S50000x128, .f32⟩
  | .hbm, ⟨41, _⟩ => ⟨S600000x1, .i32⟩
  | .hbm, ⟨42, _⟩ => ⟨S50000x128, .f32⟩
  | .hbm, ⟨43, _⟩ => ⟨S50000x2, .f32⟩
  | .hbm, ⟨44, _⟩ => ⟨S50000x1, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S128x2, .f32⟩
  | .local _ .vmem, ⟨17, _⟩ => ⟨S2, .f32⟩
  | .local _ .vmem, ⟨18, _⟩ => ⟨S128x1, .f32⟩
  | .local _ .vmem, ⟨19, _⟩ => ⟨S1, .f32⟩
  | .local _ .vmem, ⟨20, _⟩ => ⟨S2000x2, .f32⟩
  | .local _ .vmem, ⟨21, _⟩ => ⟨S2000x2, .f32⟩
  | .local _ .vmem, ⟨22, _⟩ => ⟨S2000x1, .f32⟩
  | .local _ .vmem, ⟨23, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25_0 : Ref sig .tc := ⟨.hbm, 43, rfl⟩
abbrev main_v25_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc1_stg10_0 : Ref sig .tc := ⟨.vmem, 22, rfl⟩
abbrev cc1_stg10_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21
abbrev cc1_sem10_0 : DmaSem sig := 22
abbrev cc1_sem10_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x2 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2000x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x2_S128x2_0_0 : ∀ a, (![0, 0] : Fin 2 → Nat) a + S128x2.size a ≤ S128x2.size a
  h_S128x2 : 0 < S128x2.numel
  inb_S128x1_S128x1_0_0 : ∀ a, (![0, 0] : Fin 2 → Nat) a + S128x1.size a ≤ S128x1.size a
  h_S128x1 : 0 < S128x1.numel
  inb_S2_S2_0 : ∀ a, (![0] : Fin 1 → Nat) a + S2.size a ≤ S2.size a
  h_S2 : 0 < S2.numel
  shapeCasts_S2_S1x2 : S2.ShapeCasts S1x2
  broadcasts_S1x2_S2000x2 : S1x2.Broadcasts S2000x2
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  inb_S2000x2_S2000x2_0_0 : ∀ a, (![0, 0] : Fin 2 → Nat) a + S2000x2.size a ≤ S2000x2.size a
  h_S2000x2 : 0 < S2000x2.numel
  inb_S2000x1_S2000x1_0_0 : ∀ a, (![0, 0] : Fin 2 → Nat) a + S2000x1.size a ≤ S2000x1.size a
  h_S2000x1 : 0 < S2000x1.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  dot_S2000x128_S128x2_S2000x2_1_0_0_1_n_n_wf : DotDims.WF S2000x128 S128x2 S2000x2 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x2.size a ≤ S128x2.size a
  hwx1_5 : ∀ i : grid1.Coords, EltTy.bits .f32 = 32 ∨ (Rect.block (s := S128x2) S128x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2.size a ≤ S2.size a
  hwx1_6 : ∀ i : grid1.Coords, EltTy.bits .f32 = 32 ∨ (Rect.block (s := S2) S2.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x1.size a ≤ S128x1.size a
  hwx1_7 : ∀ i : grid1.Coords, EltTy.bits .f32 = 32 ∨ (Rect.block (s := S128x1) S128x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1.size a ≤ S1.size a
  hwx1_8 : ∀ i : grid1.Coords, EltTy.bits .f32 = 32 ∨ (Rect.block (s := S1) S1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x2.size a ≤ S50000x2.size a
  hwx1_9 : ∀ i : grid1.Coords, EltTy.bits .f32 = 32 ∨ (Rect.block (s := S50000x2) S2000x2.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x1.size a ≤ S50000x1.size a
  hwx1_10 : ∀ i : grid1.Coords, EltTy.bits .f32 = 32 ∨ (Rect.block (s := S50000x1) S2000x1.size (cc1_transform_10 i) (hinb1_10 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S128x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v25_0) S2000x2.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v25_1) S2000x1.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S50000x2 : Shape := ⟨2, ![50000, 2]⟩
abbrev S1x2 : Shape := ⟨2, ![1, 2]⟩
abbrev S50000x1 : Shape := ⟨2, ![50000, 1]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x2, .f32⟩
  | .hbm, ⟨9, _⟩ => ⟨S2, .f32⟩
  | .hbm, ⟨10, _⟩ => ⟨S128x1, .f32⟩
  | .hbm, ⟨11, _⟩ => ⟨S1, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S50000x128, .f32⟩
  | .hbm, ⟨27, _⟩ => ⟨S600000x1, .i32⟩
  | .hbm, ⟨28, _⟩ => ⟨S50000x128, .f32⟩
  | .hbm, ⟨29, _⟩ => ⟨S50000x128, .f32⟩
  | .hbm, ⟨30, _⟩ => ⟨S1x128, .f32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S50000x128, .f32⟩
  | .hbm, ⟨37, _⟩ => ⟨S50000x128, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000x128, .f32⟩
  | .hbm, ⟨47, _⟩ => ⟨S_, .f32⟩
  | .hbm, ⟨48, _⟩ => ⟨S50000x128, .f32⟩
  | .hbm, ⟨49, _⟩ => ⟨S600000x1, .i32⟩
  | .hbm, ⟨50, _⟩ => ⟨S50000x128, .f32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S50000x128, .f32⟩
  | .hbm, ⟨59, _⟩ => ⟨S50000x128, .f32⟩
  | .hbm, ⟨60, _⟩ => ⟨S50000x2, .f32⟩
  | .hbm, ⟨61, _⟩ => ⟨S1x2, .f32⟩
  | .hbm, ⟨62, _⟩ => ⟨S50000x2, .f32⟩
  | .hbm, ⟨63, _⟩ => ⟨S50000x2, .f32⟩
  | .hbm, ⟨64, _⟩ => ⟨S50000x1, .f32⟩
  | .hbm, ⟨65, _⟩ => ⟨S1x1, .f32⟩
  | .hbm, ⟨66, _⟩ => ⟨S50000x1, .f32⟩
  | .hbm, ⟨67, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call0_cst : Ref sig .tc := ⟨.hbm, 35, rfl⟩
abbrev main_call0_v0 : Ref sig .tc := ⟨.hbm, 36, rfl⟩
abbrev main_v20 : Ref sig .tc := ⟨.hbm, 37, rfl⟩
abbrev main_c_1 : Ref sig .tc := ⟨.hbm, 38, rfl⟩
abbrev main_v21 : Ref sig .tc := ⟨.hbm, 39, rfl⟩
abbrev main_v22 : Ref sig .tc := ⟨.hbm, 40, rfl⟩
abbrev main_c_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call1_cst : Ref sig .tc := ⟨.hbm, 57, rfl⟩
abbrev main_call1_v0 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x2_S50000x2_1_0_0_1_n_n_wf : DotDims.WF S50000x128 S128x2 S50000x2 [1] [0] [0] [1] [] []
  dot_S50000x128_S128x1_S50000x1_1_0_0_1_n_n_wf : DotDims.WF S50000x128 S128x1 S50000x1 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelRun.lean ====
/-
  The idealized kernel's run with its two results named: every weakly fair execution of the program terminates,
  and in its final memory each result array holds what the second region's write-backs leave there (the last fold of
  the memory through the program's host stretches and its two regions), the arguments as launched.
-/
import proofs.«148136_j81363860456051_1_alg».proof.Proof.Gen.KernelIdeal.Frame

set_option maxRecDepth 16384

noncomputable section

namespace Cert.KernelSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result arrays read off the last boundary's contents. -/
theorem run_results : θ_run defs (onTc (τ := τ) (main (F := F))) ⟨m, fun _ => 0, ρ⟩ (fun r => ∀ c : Dev nD,
      r.2.mem ((c.tc : Thread nD τ).loc main_v25_0) = W4 m ρ c (Proc.devRef .tc main_v25_0)
      ∧ r.2.mem ((c.tc : Thread nD τ).loc main_v25_1) = W4 m ρ c (Proc.devRef .tc main_v25_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v25_0 (by decide)),
       h c _ (mem_uc main_v25_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelSide

end
-- ==== Proof.Spec.lean ====
/-
  Two graph-convolution layers and two linear heads, entry by entry, on the extended reals.

  A layer takes the neighbour sums `agg` and the node features `h` (both [n, 128]) and returns, at row `p` and
  column `q`, the larger of zero and
      (∑ d, agg[p, d] · wrel[d, q])  +  (∑ d, h[p, d] · wroot[d, q])  +  b[q].
  A head takes node features `h` ([n, 128]) and returns at `(p, j)` the sum  ∑ d, h[p, d] · w[d, j]  plus  b[j].
  The whole network applies a neighbour-sum operator `S` (an unopened function of node features and the edge list)
  before each of the two layers and both heads to the second layer's output.  Nothing here opens `S`.
-/
import Idealize.ShloMosaic.PureOps.Ideal
import Idealize.ShloMosaic.Lib.ValueIdx

noncomputable section

open scoped BigOperators

namespace Cert.GraphConv

open Idealize.ShloMosaic Idealize.ShloMosaic.ValueIdx

/-- The zero literal of the `max` (the word of +0.0). -/
abbrev zeroLit : EReal := Ideal.ofBits .f32 0x00000000#32

/-- Entry `(p, q)` of one layer: relu of the two products' sum plus the bias. -/
def convAt {n : ℕ} (agg h : FVec Ideal ⟨2, ![n, 128]⟩ .f32) (wrel wroot : FVec Ideal ⟨2, ![128, 128]⟩ .f32)
    (b : FVec Ideal ⟨1, ![128]⟩ .f32) (p : Fin n) (q : Fin 128) : EReal :=
  max (((∑ d : Fin 128, agg (ix2 p d) * wrel (ix2 d q)) + ∑ d : Fin 128, h (ix2 p d) * wroot (ix2 d q)) + b (ix1 q))
    zeroLit

/-- One layer as an array. -/
def conv {n : ℕ} (agg h : FVec Ideal ⟨2, ![n, 128]⟩ .f32) (wrel wroot : FVec Ideal ⟨2, ![128, 128]⟩ .f32)
    (b : FVec Ideal ⟨1, ![128]⟩ .f32) : FVec Ideal ⟨2, ![n, 128]⟩ .f32 :=
  fun i => convAt agg h wrel wroot b (i 0) (i 1)

theorem conv_apply {n : ℕ} (agg h : FVec Ideal ⟨2, ![n, 128]⟩ .f32) (wrel wroot : FVec Ideal ⟨2, ![128, 128]⟩ .f32)
    (b : FVec Ideal ⟨1, ![128]⟩ .f32) (p : Fin n) (q : Fin 128) :
    conv agg h wrel wroot b (ix2 p q) = convAt agg h wrel wroot b p q := rfl

/-- Entry `(p, j)` of a linear head. -/
def headAt {n k : ℕ} (h : FVec Ideal ⟨2, ![n, 128]⟩ .f32) (w : FVec Ideal ⟨2, ![128, k]⟩ .f32)
    (b : FVec Ideal ⟨1, ![k]⟩ .f32) (p : Fin n) (j : Fin k) : EReal :=
  (∑ d : Fin 128, h (ix2 p d) * w (ix2 d j)) + b (ix1 j)

/-- A linear head as an array. -/
def head {n k : ℕ} (h : FVec Ideal ⟨2, ![n, 128]⟩ .f32) (w : FVec Ideal ⟨2, ![128, k]⟩ .f32)
    (b : FVec Ideal ⟨1, ![k]⟩ .f32) : FVec Ideal ⟨2, ![n, k]⟩ .f32 :=
  fun i => headAt h w b (i 0) (i 1)

theorem head_apply {n k : ℕ} (h : FVec Ideal ⟨2, ![n, 128]⟩ .f32) (w : FVec Ideal ⟨2, ![128, k]⟩ .f32)
    (b : FVec Ideal ⟨1, ![k]⟩ .f32) (p : Fin n) (j : Fin k) :
    head h w b (ix2 p j) = headAt h w b p j := rfl

/-- The node features, the edge list, and a neighbour-sum operator on them. -/
abbrev Nodes : Type := FVec Ideal ⟨2, ![50000, 128]⟩ .f32
abbrev Edges : Type := IVec ⟨2, ![2, 600000]⟩ 32
abbrev NeighbourSum : Type := Nodes → Edges → Nodes

/-- The first layer's output. -/
def hidden1 (S : NeighbourSum) (x : Nodes) (ei : Edges) (w1rel w1root : FVec Ideal ⟨2, ![128, 128]⟩ .f32)
    (b1 : FVec Ideal ⟨1, ![128]⟩ .f32) : Nodes :=
  conv (S x ei) x w1rel w1root b1

/-- The second layer's output. -/
def hidden2 (S : NeighbourSum) (x : Nodes) (ei : Edges) (w1rel w1root : FVec Ideal ⟨2, ![128, 128]⟩ .f32)
    (b1 : FVec Ideal ⟨1, ![128]⟩ .f32) (w2rel w2root : FVec Ideal ⟨2, ![128, 128]⟩ .f32)
    (b2 : FVec Ideal ⟨1, ![128]⟩ .f32) : Nodes :=
  conv (S (hidden1 S x ei w1rel w1root b1) ei) (hidden1 S x ei w1rel w1root b1) w2rel w2root b2

/-- A head on the second layer's output: the network's result for weights `w` and bias `b`. -/
def output {k : ℕ} (S : NeighbourSum) (x : Nodes) (ei : Edges) (w1rel w1root : FVec Ideal ⟨2, ![128, 128]⟩ .f32)
    (b1 : FVec Ideal ⟨1, ![128]⟩ .f32) (w2rel w2root : FVec Ideal ⟨2, ![128, 128]⟩ .f32)
    (b2 : FVec Ideal ⟨1, ![128]⟩ .f32) (w : FVec Ideal ⟨2, ![128, k]⟩ .f32) (b : FVec Ideal ⟨1, ![k]⟩ .f32) :
    FVec Ideal ⟨2, ![50000, k]⟩ .f32 :=
  head (hidden2 S x ei w1rel w1root b1 w2rel w2root b2) w b

end Cert.GraphConv

end
-- ==== Proof.LibMatmulRead.lean ====
/-
  A matrix product and a transpose read entry by entry.

  Three facts about rank-2 arrays of extended reals, each stated at an index given by its two coordinates:
    • the transpose of an `[a, b]` array reads, at `(q, p)`, the operand at `(p, q)`;
    • a matrix product that contracts the second axis of an `[a, k]` array with the first axis of a `[k, b]`
      array, started from the zero accumulator, reads at `(p, q)` the sum over `d` of the left operand at
      `(p, d)` times the right operand at `(d, q)`;
    • so the product of an `[a, k]` array with the TRANSPOSE of a `[b, k]` array reads at `(p, q)` the inner
      product of row `p` of the first with row `q` of the second.
  The record of dimension numbers is any one whose six axis lists are the plain product's; at a literal record each
  of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- The transpose of an `[a, b]` array reads, at `(q, p)`, the operand at `(p, q)`. -/
theorem transpose_ab_ba_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun ax => by
    match ax with
    | ⟨0, _⟩ => rfl
    | ⟨1, _⟩ => rfl

/-- A product contracting the second axis of the left operand with the first axis of the right one, from the zero
    accumulator, read at `(p, q)`: the sum over the contracted coordinate. -/
theorem matmul_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    matmul D prec x w (constant (F := Ideal) ⟨2, ![a, b]⟩ .f32 0x00000000#32) (ix2 p q)
      = ∑ d : Fin k, x (ix2 p d) * w (ix2 d q) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- The product of an `[a, k]` array with the transpose of a `[b, k]` array, from the zero accumulator, read at
    `(p, q)`: the inner product of row `p` of the first with row `q` of the second. -/
theorem matmul_transpose_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![b, k]⟩ φ₂)
    (h : (⟨2, ![b, k]⟩ : Shape).Transposes [1, 0] ⟨2, ![k, b]⟩) (p : Fin a) (q : Fin b) :
    matmul D prec x (transpose ⟨2, ![k, b]⟩ [1, 0] w h) (constant (F := Ideal) ⟨2, ![a, b]⟩ .f32 0x00000000#32) (ix2 p q)
      = ∑ d : Fin k, x (ix2 p d) * w (ix2 q d) :=
  (matmul_ix2_apply D hlc hrc hln hrn hlb hrb prec x _ p q).trans
    (Finset.sum_congr rfl fun d _ => congrArg (x (ix2 p d) * ·) (transpose_ab_ba_apply w h d q))

end Idealize.ShloMosaic.ValueIdx
-- ==== Proof.Payload.lean ====
/-
  What the two kernel bodies compute from their loaded blocks, at the exact extended-real values: the first body's
  stored block is one graph-convolution layer of its blocks, and the second body's two stored blocks are the two
  linear heads of such a layer.
-/
import proofs.«148136_j81363860456051_1_alg».proof.Proof.Gen.KernelIdeal.Skeleton
import proofs.«148136_j81363860456051_1_alg».proof.Proof.Spec
import proofs.«148136_j81363860456051_1_alg».proof.Proof.LibMatmulRead
import Idealize.ShloMosaic.Lib.ValueLayout

noncomputable section

open scoped BigOperators

namespace Cert.KernelSide

open Idealize.ShloMosaic Idealize.ShloMosaic.ValueIdx Cert.KernelIdeal Cert.KernelIdeal.Gen Cert.GraphConv

/-- A `[b]` array given a leading unit axis and then repeated over `a` rows reads, at `(p, q)`, its entry `q`. -/
theorem bias_apply {a b : ℕ} (v : FVec Ideal ⟨1, ![b]⟩ .f32) (h₁ : (⟨1, ![b]⟩ : Shape).ShapeCasts ⟨2, ![1, b]⟩)
    (h₂ : (⟨2, ![1, b]⟩ : Shape).Broadcasts ⟨2, ![a, b]⟩) (p : Fin a) (q : Fin b) :
    broadcastTo ⟨2, ![a, b]⟩ (shapeCast ⟨2, ![1, b]⟩ v h₁) h₂ (ix2 p q) = v (ix1 q) :=
  (broadcastTo_1b_ab_apply _ h₂ p q).trans (shapeCast_a_1a_apply v h₁ 0 q)

/-- The first body's stored block read at `(p, q)`: the layer's entry. -/
theorem pay_layer_at (x0 x1 : FVec Ideal S2000x128 .f32) (w0 w1 : FVec Ideal S128x128 .f32) (b : FVec Ideal S128 .f32)
    (p : Fin 2000) (q : Fin 128) :
    k0_pay1 (F := Ideal) x0 x1 w0 w1 b (ix2 p q) = convAt (n := 2000) x0 x1 w0 w1 b p q := by
  unfold k0_pay1 convAt
  refine congrArg₂ max (congrArg₂ (· + ·) (congrArg₂ (· + ·) ?_ ?_) ?_) rfl
  · refine (matmul_ix2_apply _ rfl rfl rfl rfl rfl rfl none _ _ p q).trans ?_
    exact Finset.sum_congr rfl fun d _ => congrArg₂ (· * ·) (congrFun (shapeCast_self x0 _) _) rfl
  · exact matmul_ix2_apply _ rfl rfl rfl rfl rfl rfl none _ _ p q
  · exact bias_apply b _ _ p q

/-- The first body's stored block: a layer of the neighbour-sum block and the feature block. -/
theorem pay_layer (x0 x1 : Vec Ideal S2000x128 .f32) (w0 w1 : Vec Ideal S128x128 .f32) (b : Vec Ideal S128 .f32) :
    k0_pay1 (F := Ideal) x0 x1 w0 w1 b = conv (n := 2000) x0 x1 w0 w1 b := by
  funext i
  obtain ⟨p, q, rfl⟩ : ∃ (p : Fin 2000) (q : Fin 128), i = ix2 p q := ⟨i 0, i 1, eq_ix2 i⟩
  exact pay_layer_at x0 x1 w0 w1 b p q

/-- The second body's hidden block read at `(p, q)`: the layer's entry. -/
theorem pay_hidden_at (x0 x1 : FVec Ideal S2000x128 .f32) (w0 w1 : FVec Ideal S128x128 .f32) (b : FVec Ideal S128 .f32)
    (p : Fin 2000) (q : Fin 128) :
    k1_pay1 (F := Ideal) x0 x1 w0 w1 b (ix2 p q) = convAt (n := 2000) x0 x1 w0 w1 b p q := by
  unfold k1_pay1 convAt
  refine congrArg₂ max (congrArg₂ (· + ·) (congrArg₂ (· + ·) ?_ ?_) ?_) rfl
  · refine (matmul_ix2_apply _ rfl rfl rfl rfl rfl rfl none _ _ p q).trans ?_
    exact Finset.sum_congr rfl fun d _ => congrArg₂ (· * ·) (congrFun (shapeCast_self x0 _) _) rfl
  · refine (matmul_ix2_apply _ rfl rfl rfl rfl rfl rfl none _ _ p q).trans ?_
    exact Finset.sum_congr rfl fun d _ => congrArg₂ (· * ·) (congrFun (shapeCast_self x1 _) _) rfl
  · exact bias_apply b _ _ p q

/-- The second body's hidden block (before the heads): the same layer. -/
theorem pay_hidden (x0 x1 : Vec Ideal S2000x128 .f32) (w0 w1 : Vec Ideal S128x128 .f32) (b : Vec Ideal S128 .f32) :
    k1_pay1 (F := Ideal) x0 x1 w0 w1 b = conv (n := 2000) x0 x1 w0 w1 b := by
  funext i
  obtain ⟨p, q, rfl⟩ : ∃ (p : Fin 2000) (q : Fin 128), i = ix2 p q := ⟨i 0, i 1, eq_ix2 i⟩
  exact pay_hidden_at x0 x1 w0 w1 b p q

/-- The second body's first stored block read at `(p, j)`: the two-column head's entry. -/
theorem pay_head2_at (x0 x1 : FVec Ideal S2000x128 .f32) (w0 w1 : FVec Ideal S128x128 .f32) (b : FVec Ideal S128 .f32)
    (wa : FVec Ideal S128x2 .f32) (ba : FVec Ideal S2 .f32) (p : Fin 2000) (j : Fin 2) :
    k1_pay2 (F := Ideal) x0 x1 w0 w1 b wa ba (ix2 p j)
      = headAt (n := 2000) (k := 2) (conv (n := 2000) x0 x1 w0 w1 b) wa ba p j := by
  unfold k1_pay2 headAt
  refine congrArg₂ (· + ·) ?_ (bias_apply ba _ _ p j)
  refine (matmul_ix2_apply _ rfl rfl rfl rfl rfl rfl none _ _ p j).trans ?_
  exact Finset.sum_congr rfl fun d _ => congrArg₂ (· * ·) (congrFun (pay_hidden x0 x1 w0 w1 b) _) rfl

/-- The second body's first stored block: the two-column head of the hidden block. -/
theorem pay_head2 (x0 x1 : Vec Ideal S2000x128 .f32) (w0 w1 : Vec Ideal S128x128 .f32) (b : Vec Ideal S128 .f32)
    (wa : Vec Ideal S128x2 .f32) (ba : Vec Ideal S2 .f32) :
    k1_pay2 (F := Ideal) x0 x1 w0 w1 b wa ba = head (n := 2000) (k := 2) (conv (n := 2000) x0 x1 w0 w1 b) wa ba := by
  funext i
  obtain ⟨p, j, rfl⟩ : ∃ (p : Fin 2000) (j : Fin 2), i = ix2 p j := ⟨i 0, i 1, eq_ix2 i⟩
  exact pay_head2_at x0 x1 w0 w1 b wa ba p j

/-- The second body's second stored block read at `(p, j)`: the one-column head's entry. -/
theorem pay_head1_at (x0 x1 : FVec Ideal S2000x128 .f32) (w0 w1 : FVec Ideal S128x128 .f32) (b : FVec Ideal S128 .f32)
    (wo : FVec Ideal S128x1 .f32) (bo : FVec Ideal S1 .f32) (p : Fin 2000) (j : Fin 1) :
    k1_pay3 (F := Ideal) x0 x1 w0 w1 b wo bo (ix2 p j)
      = headAt (n := 2000) (k := 1) (conv (n := 2000) x0 x1 w0 w1 b) wo bo p j := by
  unfold k1_pay3 headAt
  refine congrArg₂ (· + ·) ?_ (bias_apply bo _ _ p j)
  refine (matmul_ix2_apply _ rfl rfl rfl rfl rfl rfl none _ _ p j).trans ?_
  exact Finset.sum_congr rfl fun d _ => congrArg₂ (· * ·) (congrFun (pay_hidden x0 x1 w0 w1 b) _) rfl

/-- The second body's second stored block: the one-column head of the hidden block. -/
theorem pay_head1 (x0 x1 : Vec Ideal S2000x128 .f32) (w0 w1 : Vec Ideal S128x128 .f32) (b : Vec Ideal S128 .f32)
    (wo : Vec Ideal S128x1 .f32) (bo : Vec Ideal S1 .f32) :
    k1_pay3 (F := Ideal) x0 x1 w0 w1 b wo bo = head (n := 2000) (k := 1) (conv (n := 2000) x0 x1 w0 w1 b) wo bo := by
  funext i
  obtain ⟨p, j, rfl⟩ : ∃ (p : Fin 2000) (j : Fin 1), i = ix2 p j := ⟨i 0, i 1, eq_ix2 i⟩
  exact pay_head1_at x0 x1 w0 w1 b wo bo p j

end Cert.KernelSide

end
-- ==== Proof.Region0.lean ====
/-
  The first region's result array, whatever the buffers hold when the region is entered: block `t` of the output is
  rows 2000·t … 2000·t + 1999, each input block is the same rows of its array (the weights and the bias whole), so what
  point `t` writes back is block `t` of ONE array — the layer of the whole neighbour-sum and feature arrays — and
  the 25 blocks tile the 50000 rows.
-/
import proofs.«148136_j81363860456051_1_alg».proof.Proof.Gen.KernelIdeal.Frame
import proofs.«148136_j81363860456051_1_alg».proof.Proof.Payload
import Idealize.ShloMosaic.Lib.Pipeline.Value

noncomputable section

open scoped BigOperators

namespace Cert.KernelSide

open Idealize.ShloMosaic Idealize.ShloMosaic.TcCoe Idealize.SL.Sem Idealize.ShloMosaic.ValueIdx
open Idealize.ShloMosaic.Pipeline (Dat)
open Cert.KernelIdeal Cert.KernelIdeal.Gen Cert.GraphConv

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The first region's index maps over its 25 points: the row blocks move with the point, the weights stay. -/
theorem index0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The neighbour-sum block at point `t` is rows 2000·t … of its array. -/
theorem agg_block0 (c : Dev nD) (t : Fin cfg0.N) (x : S2000x128.Idx) (k : S50000x128.Idx)
    (hk0 : (k 0).val = 2000 * t.val + (x 0).val) (hk1 : (k 1).val = (x 1).val) :
    (iblk0 V c 0 t : Vec Ideal S2000x128 .f32) x = (V c main_v13 : S50000x128.Idx → Elt Ideal .f32) k := by
  obtain ⟨h0, h1, -⟩ := index0 t
  unfold iblk0
  rw [View.read_apply]
  show V c main_v13 _ = V c main_v13 _
  congr 1
  funext a
  apply Fin.ext
  match a with
  | ⟨0, _⟩ => show win0_0.index t 0 * 2000 + 1 * (x 0).val = (k 0).val; rw [h0, hk0]; omega
  | ⟨1, _⟩ => show win0_0.index t 1 * 128 + 1 * (x 1).val = (k 1).val; rw [h1, hk1]; omega

/-- The feature block at point `t` is rows 2000·t … of the feature array. -/
theorem feat_block0 (c : Dev nD) (t : Fin cfg0.N) (x : S2000x128.Idx) (k : S50000x128.Idx)
    (hk0 : (k 0).val = 2000 * t.val + (x 0).val) (hk1 : (k 1).val = (x 1).val) :
    (iblk0 V c 1 t : Vec Ideal S2000x128 .f32) x = (V c main_arg0 : S50000x128.Idx → Elt Ideal .f32) k := by
  obtain ⟨-, -, h0, h1, -⟩ := index0 t
  unfold iblk0
  rw [View.read_apply]
  show V c main_arg0 _ = V c main_arg0 _
  congr 1
  funext a
  apply Fin.ext
  match a with
  | ⟨0, _⟩ => show win0_1.index t 0 * 2000 + 1 * (x 0).val = (k 0).val; rw [h0, hk0]; omega
  | ⟨1, _⟩ => show win0_1.index t 1 * 128 + 1 * (x 1).val = (k 1).val; rw [h1, hk1]; omega

/-- The two weight blocks and the bias block are their whole arrays at every point. -/
theorem wrel_block0 (c : Dev nD) (t : Fin cfg0.N) :
    (iblk0 V c 2 t : Vec Ideal S128x128 .f32) = (V c main_arg2 : S128x128.Idx → Elt Ideal .f32) := by
  obtain ⟨-, -, -, -, h0, h1, -⟩ := index0 t
  funext x
  unfold iblk0
  rw [View.read_apply]
  show V c main_arg2 _ = V c main_arg2 _
  congr 1
  funext a
  apply Fin.ext
  match a with
  | ⟨0, _⟩ => show win0_2.index t 0 * 128 + 1 * (x 0).val = (x 0).val; rw [h0]; omega
  | ⟨1, _⟩ => show win0_2.index t 1 * 128 + 1 * (x 1).val = (x 1).val; rw [h1]; omega

theorem bias_block0 (c : Dev nD) (t : Fin cfg0.N) :
    (iblk0 V c 3 t : Vec Ideal S128 .f32) = (V c main_arg3 : S128.Idx → Elt Ideal .f32) := by
  obtain ⟨-, -, -, -, -, -, h0, -⟩ := index0 t
  funext x
  unfold iblk0
  rw [View.read_apply]
  show V c main_arg3 _ = V c main_arg3 _
  congr 1
  funext a
  apply Fin.ext
  match a with
  | ⟨0, _⟩ => show win0_3.index t 0 * 128 + 1 * (x 0).val = (x 0).val; rw [h0]; omega

theorem wroot_block0 (c : Dev nD) (t : Fin cfg0.N) :
    (iblk0 V c 4 t : Vec Ideal S128x128 .f32) = (V c main_arg4 : S128x128.Idx → Elt Ideal .f32) := by
  obtain ⟨-, -, -, -, -, -, -, h0, h1, -⟩ := index0 t
  funext x
  unfold iblk0
  rw [View.read_apply]
  show V c main_arg4 _ = V c main_arg4 _
  congr 1
  funext a
  apply Fin.ext
  match a with
  | ⟨0, _⟩ => show win0_4.index t 0 * 128 + 1 * (x 0).val = (x 0).val; rw [h0]; omega
  | ⟨1, _⟩ => show win0_4.index t 1 * 128 + 1 * (x 1).val = (x 1).val; rw [h1]; omega

/-- The layer of the whole arrays the region finds: what its result array will hold. -/
abbrev layer0 (c : Dev nD) : S50000x128.Idx → Elt Ideal .f32 :=
  conv (n := 50000) (V c main_v13) (V c main_arg0) (V c main_arg2) (V c main_arg4) (V c main_arg3)

/-- What point `t` writes back is block `t` of that layer. -/
theorem flushed0 (c : Dev nD) (t : Fin cfg0.N) :
    (dat0 V c).flushed 5 t = ((cfg0.win 5).blk t).view.read (Elt Ideal) (layer0 V c) := by
  show (cfg0.win 5).cut (grid0.coords t) ((dat0 V c).after 5 t) = _
  rw [after0_5]
  unfold out0_5
  rw [View.canon_unit_zero zeros2]
  simp only [View.ld_unit_zero (S := S2000x128) zeros2, View.ld_unit_zero (S := S128x128) zeros2,
    View.ld_unit_zero (S := S128) zeros1]
  rw [pay_layer, wrel_block0, bias_block0, wroot_block0]
  obtain ⟨-, -, -, -, -, -, -, -, -, h0, h1⟩ := index0 t
  funext j
  show convAt (iblk0 V c 0 t) (iblk0 V c 1 t) (V c main_arg2) (V c main_arg4) (V c main_arg3) (j 0) (j 1)
    = convAt (n := 50000) (V c main_v13) (V c main_arg0) (V c main_arg2) (V c main_arg4) (V c main_arg3)
        ((((cfg0.win 5).blk t).view.emb j) 0) ((((cfg0.win 5).blk t).view.emb j) 1)
  have hrow : ((((cfg0.win 5).blk t).view.emb j) 0).val = 2000 * t.val + (j 0).val := by
    show win0_5.index t 0 * 2000 + 1 * (j 0).val = 2000 * t.val + (j 0).val
    rw [h0]; omega
  have hcol : ((((cfg0.win 5).blk t).view.emb j) 1).val = (j 1).val := by
    show win0_5.index t 1 * 128 + 1 * (j 1).val = (j 1).val
    rw [h1]; omega
  have ea : ∀ d : Fin 128, (iblk0 V c 0 t : Vec Ideal S2000x128 .f32) (ix2 (j 0) d)
      = (V c main_v13 : S50000x128.Idx → Elt Ideal .f32) (ix2 ((((cfg0.win 5).blk t).view.emb j) 0) d) :=
    fun d => agg_block0 V c t _ _ hrow rfl
  have ef : ∀ d : Fin 128, (iblk0 V c 1 t : Vec Ideal S2000x128 .f32) (ix2 (j 0) d)
      = (V c main_arg0 : S50000x128.Idx → Elt Ideal .f32) (ix2 ((((cfg0.win 5).blk t).view.emb j) 0) d) :=
    fun d => feat_block0 V c t _ _ hrow rfl
  have hq : (j 1 : Fin 128) = (((cfg0.win 5).blk t).view.emb j) 1 := Fin.ext hcol.symm
  unfold convAt
  simp only [ea, ef, hq]

/-- An index of the result array is in point `t`'s block iff each coordinate is in the block's range. -/
theorem mem_block0 (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v14).slice (win0_5.rect t)).set ↔ _
  rw [View.set_slice_whole, Rect.mem_set_unit]
  exact Iff.rfl

/-- Row `r` is in the block of point `r / 2000`: the 25 blocks tile the array. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  have ht : (i 0).val / 2000 < cfg0.N := by rw [hN]; omega
  obtain ⟨-, -, -, -, -, -, -, -, -, h0, h1⟩ := index0 ⟨(i 0).val / 2000, ht⟩
  refine ⟨⟨(i 0).val / 2000, ht⟩, flush0_5 _, ?_⟩
  rw [mem_block0]
  intro a
  match a with
  | ⟨0, _⟩ =>
    show win0_5.index ⟨(i 0).val / 2000, ht⟩ 0 * 2000 ≤ (i 0).val
      ∧ (i 0).val < win0_5.index ⟨(i 0).val / 2000, ht⟩ 0 * 2000 + 2000
    rw [h0]
    show (i 0).val / 2000 * 2000 ≤ (i 0).val ∧ (i 0).val < (i 0).val / 2000 * 2000 + 2000
    omega
  | ⟨1, _⟩ =>
    show win0_5.index ⟨(i 0).val / 2000, ht⟩ 1 * 128 ≤ (i 1).val
      ∧ (i 1).val < win0_5.index ⟨(i 0).val / 2000, ht⟩ 1 * 128 + 128
    rw [h1]
    omega

/-- The first region leaves in its result array the layer of the arrays it found. -/
theorem final0 (c : Dev nD) : (dat0 V c).arrAt 5 cfg0.N = layer0 V c :=
  (dat0 V c).arrAt_eq_of_cover 5 (layer0 V c) (fun t _ => flushed0 V c t) cover0

end Cert.KernelSide

end
-- ==== Proof.Fold.lean ====
/-
  The idealized kernel's two results as functions of its arguments.  The memory is followed through the program: the
  first host stretch forms the neighbour sums of the features, the first region leaves one layer of them, the second
  host stretch forms the neighbour sums of that layer with the same edge list, and the second region leaves the two
  heads of the second layer.  The neighbour sum is carried as one unopened function of node features and edge list.
-/
import proofs.«148136_j81363860456051_1_alg».proof.Proof.Gen.KernelIdeal.Frame
import proofs.«148136_j81363860456051_1_alg».proof.Proof.Region0
import Idealize.ShloMosaic.Lib.StableHlo.Run

noncomputable section

namespace Cert.KernelSide

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.GraphConv

/-- The program's neighbour sum: the rows of `h` named by the edges' sources (a negative source wrapped by the number
    of nodes) added into the rows named by the edges' destinations, from zero. -/
def neighbourSumK (h : Nodes) (ei : Edges) : Nodes :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0
      (shapeCast _ (extractStridedSlice S1x600000 ![1, 0] ei slices_S2x600000_S1x600000_1_0) shapeCasts_S1x600000_S600000))
    (Host.gather gather_S50000x128_S600000x1_S600000x128_1_0_n_n_0_1_1128 h
      (broadcastInDim S600000x1 ![0] bcast_S600000_S600000x1_0
        (select
          (cmpi .slt (shapeCast _ (extractStridedSlice S1x600000 ![0, 0] ei slices_S2x600000_S1x600000_0_0) shapeCasts_S1x600000_S600000)
            (broadcastInDim S600000 ![] bcast_S_S600000 (constantI S_ 32 0#32)))
          (addi (shapeCast _ (extractStridedSlice S1x600000 ![0, 0] ei slices_S2x600000_S1x600000_0_0) shapeCasts_S1x600000_S600000)
            (broadcastInDim S600000 ![] bcast_S_S600000 (constantI S_ 32 50000#32)))
          (shapeCast _ (extractStridedSlice S1x600000 ![0, 0] ei slices_S2x600000_S1x600000_0_0) shapeCasts_S1x600000_S600000))))

variable (m : (ℓ : Loc nD τ sig) → Buf (Elt Ideal) ℓ) (ρ : Dev nD → PrngReg)

/-! ## After the first host stretch -/

/-- The edges' sources, as the first host stretch leaves them. -/
theorem sources_eq (c : Dev nD) : W1 m ρ c (Proc.devRef .tc main_v1)
    = shapeCast _ (extractStridedSlice S1x600000 ![0, 0] (m ((c.tc : Thread nD τ).loc main_arg1)) slices_S2x600000_S1x600000_0_0) shapeCasts_S1x600000_S600000 := by
  show StableHlo.after hostOps0 (W0 m ρ c) (Proc.devRef .tc main_v1) = _
  after_results
  rfl

/-- The edges' destinations, as the first host stretch leaves them. -/
theorem dests_eq (c : Dev nD) : W1 m ρ c (Proc.devRef .tc main_v3)
    = shapeCast _ (extractStridedSlice S1x600000 ![1, 0] (m ((c.tc : Thread nD τ).loc main_arg1)) slices_S2x600000_S1x600000_1_0) shapeCasts_S1x600000_S600000 := by
  show StableHlo.after hostOps0 (W0 m ρ c) (Proc.devRef .tc main_v3) = _
  after_results
  rfl

/-- The first region's neighbour sums are those of the features. -/
theorem agg1_eq (c : Dev nD) : W1 m ρ c (Proc.devRef .tc main_v13) = neighbourSumK (m ((c.tc : Thread nD τ).loc main_arg0)) (m ((c.tc : Thread nD τ).loc main_arg1)) := by
  show StableHlo.after hostOps0 (W0 m ρ c) (Proc.devRef .tc main_v13) = _
  after_results
  rfl

/-- The arguments the first region reads are as launched. -/
theorem arg0_W1 (c : Dev nD) : W1 m ρ c (Proc.devRef .tc main_arg0) = (m ((c.tc : Thread nD τ).loc main_arg0)) := by
  show StableHlo.after hostOps0 (W0 m ρ c) (Proc.devRef .tc main_arg0) = _
  after_results
theorem arg2_W1 (c : Dev nD) : W1 m ρ c (Proc.devRef .tc main_arg2) = (m ((c.tc : Thread nD τ).loc main_arg2)) := by
  show StableHlo.after hostOps0 (W0 m ρ c) (Proc.devRef .tc main_arg2) = _
  after_results
theorem arg3_W1 (c : Dev nD) : W1 m ρ c (Proc.devRef .tc main_arg3) = (m ((c.tc : Thread nD τ).loc main_arg3)) := by
  show StableHlo.after hostOps0 (W0 m ρ c) (Proc.devRef .tc main_arg3) = _
  after_results
theorem arg4_W1 (c : Dev nD) : W1 m ρ c (Proc.devRef .tc main_arg4) = (m ((c.tc : Thread nD τ).loc main_arg4)) := by
  show StableHlo.after hostOps0 (W0 m ρ c) (Proc.devRef .tc main_arg4) = _
  after_results

/-! ## After the first region -/

/-- The first layer's output, as a function of the arguments. -/
abbrev layerOne (c : Dev nD) : Nodes :=
  hidden1 neighbourSumK (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3))

/-- The first region leaves the first layer's output in its result array. -/
theorem hidden1_W2 (c : Dev nD) : W2 m ρ c (Proc.devRef .tc main_v14) = layerOne m c := by
  refine (W2_arr m ρ c 5).trans ((final0 (V1 m ρ) c).trans ?_)
  show conv (W1 m ρ c (Proc.devRef .tc main_v13)) (W1 m ρ c (Proc.devRef .tc main_arg0)) (W1 m ρ c (Proc.devRef .tc main_arg2))
      (W1 m ρ c (Proc.devRef .tc main_arg4)) (W1 m ρ c (Proc.devRef .tc main_arg3)) = _
  rw [agg1_eq, arg0_W1, arg2_W1, arg4_W1, arg3_W1]
  rfl

/-- The first region writes neither the sources nor the destinations. -/
theorem sources_W2 (c : Dev nD) : W2 m ρ c (Proc.devRef .tc main_v1) = W1 m ρ c (Proc.devRef .tc main_v1) :=
  W2_of_ne m ρ c main_v1 (by decide)
theorem dests_W2 (c : Dev nD) : W2 m ρ c (Proc.devRef .tc main_v3) = W1 m ρ c (Proc.devRef .tc main_v3) :=
  W2_of_ne m ρ c main_v3 (by decide)

/-! ## After the second host stretch -/

/-- The second host stretch leaves the first layer's output where it was. -/
theorem hidden1_W3 (c : Dev nD) : W3 m ρ c (Proc.devRef .tc main_v14) = layerOne m c := by
  refine Eq.trans ?_ (hidden1_W2 m ρ c)
  show StableHlo.after hostOps1 (W2 m ρ c) (Proc.devRef .tc main_v14) = _
  after_results

/-- The second region's neighbour sums are those of the first layer's output, over the same edges. -/
theorem agg2_W3 (c : Dev nD) : W3 m ρ c (Proc.devRef .tc main_v24) = neighbourSumK (layerOne m c) (m ((c.tc : Thread nD τ).loc main_arg1)) := by
  show StableHlo.after hostOps1 (W2 m ρ c) (Proc.devRef .tc main_v24) = _
  after_results
  rw [hidden1_W2, sources_W2, dests_W2, sources_eq, dests_eq]
  rfl

/-- The arguments the second region reads are as launched. -/
theorem arg5_W3 (c : Dev nD) : W3 m ρ c (Proc.devRef .tc main_arg5) = (m ((c.tc : Thread nD τ).loc main_arg5)) :=
  ((W4_arr m ρ c 2).trans (((dat1 (V3 m ρ) c).arrAt_in 2 rfl _).trans (A_eq1 (V3 m ρ) c 2))).symm.trans
    (W4_main_arg5 m ρ c)
theorem arg6_W3 (c : Dev nD) : W3 m ρ c (Proc.devRef .tc main_arg6) = (m ((c.tc : Thread nD τ).loc main_arg6)) :=
  ((W4_arr m ρ c 3).trans (((dat1 (V3 m ρ) c).arrAt_in 3 rfl _).trans (A_eq1 (V3 m ρ) c 3))).symm.trans
    (W4_main_arg6 m ρ c)
theorem arg7_W3 (c : Dev nD) : W3 m ρ c (Proc.devRef .tc main_arg7) = (m ((c.tc : Thread nD τ).loc main_arg7)) :=
  ((W4_arr m ρ c 4).trans (((dat1 (V3 m ρ) c).arrAt_in 4 rfl _).trans (A_eq1 (V3 m ρ) c 4))).symm.trans
    (W4_main_arg7 m ρ c)
theorem arg8_W3 (c : Dev nD) : W3 m ρ c (Proc.devRef .tc main_arg8) = (m ((c.tc : Thread nD τ).loc main_arg8)) :=
  ((W4_arr m ρ c 5).trans (((dat1 (V3 m ρ) c).arrAt_in 5 rfl _).trans (A_eq1 (V3 m ρ) c 5))).symm.trans
    (W4_main_arg8 m ρ c)
theorem arg9_W3 (c : Dev nD) : W3 m ρ c (Proc.devRef .tc main_arg9) = (m ((c.tc : Thread nD τ).loc main_arg9)) :=
  ((W4_arr m ρ c 6).trans (((dat1 (V3 m ρ) c).arrAt_in 6 rfl _).trans (A_eq1 (V3 m ρ) c 6))).symm.trans
    (W4_main_arg9 m ρ c)
theorem arg10_W3 (c : Dev nD) : W3 m ρ c (Proc.devRef .tc main_arg10) = (m ((c.tc : Thread nD τ).loc main_arg10)) :=
  ((W4_arr m ρ c 7).trans (((dat1 (V3 m ρ) c).arrAt_in 7 rfl _).trans (A_eq1 (V3 m ρ) c 7))).symm.trans
    (W4_main_arg10 m ρ c)
theorem arg11_W3 (c : Dev nD) : W3 m ρ c (Proc.devRef .tc main_arg11) = (m ((c.tc : Thread nD τ).loc main_arg11)) :=
  ((W4_arr m ρ c 8).trans (((dat1 (V3 m ρ) c).arrAt_in 8 rfl _).trans (A_eq1 (V3 m ρ) c 8))).symm.trans
    (W4_main_arg11 m ρ c)

end Cert.KernelSide

end
-- ==== Proof.Region1.lean ====
/-
  The second region's two result arrays, whatever the buffers hold when the region is entered: block `t` of either
  output is rows 2000·t … 2000·t + 1999, each row-blocked input is the same rows of its array (the layer's weights and
  bias and both heads' weights and biases whole), so what point `t` writes back is block `t` of ONE array — a linear
  head of the layer of the whole neighbour-sum and feature arrays — and the 25 blocks tile the 50000 rows.
-/
import proofs.«148136_j81363860456051_1_alg».proof.Proof.Gen.KernelIdeal.Frame
import proofs.«148136_j81363860456051_1_alg».proof.Proof.Payload
import proofs.«148136_j81363860456051_1_alg».proof.Proof.Region0
import Idealize.ShloMosaic.Lib.Pipeline.Value

noncomputable section

open scoped BigOperators

namespace Cert.KernelSide

open Idealize.ShloMosaic Idealize.ShloMosaic.TcCoe Idealize.SL.Sem Idealize.ShloMosaic.ValueIdx
open Idealize.ShloMosaic.Pipeline (Dat)
open Cert.KernelIdeal Cert.KernelIdeal.Gen Cert.GraphConv

variable (V : (c : Dev nD) → (b : Ref sig .tc) → Buf (Elt Ideal) ((c : Thread nD τ).loc b))

/-- The second region's index maps over its 25 points: the row blocks (two inputs, two outputs) move with the point,
    the weights and biases stay. -/
theorem index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0
    ∧ win1_9.index t (0 : Fin 2) = t.val ∧ win1_9.index t (1 : Fin 2) = 0
    ∧ win1_10.index t (0 : Fin 2) = t.val ∧ win1_10.index t (1 : Fin 2) = 0 :=
  (by decide +kernel : ∀ t : Fin grid1.N, _)

/-- The neighbour-sum block at point `t` is rows 2000·t … of its array. -/
theorem agg_block1 (c : Dev nD) (t : Fin cfg1.N) (x : S2000x128.Idx) (k : S50000x128.Idx)
    (hk0 : (k 0).val = 2000 * t.val + (x 0).val) (hk1 : (k 1).val = (x 1).val) :
    (iblk1 V c 0 t : Vec Ideal S2000x128 .f32) x = (V c main_v24 : S50000x128.Idx → Elt Ideal .f32) k := by
  obtain ⟨h0, h1, -⟩ := index1 t
  unfold iblk1
  rw [View.read_apply]
  show V c main_v24 _ = V c main_v24 _
  congr 1
  funext a
  apply Fin.ext
  match a with
  | ⟨0, _⟩ => show win1_0.index t 0 * 2000 + 1 * (x 0).val = (k 0).val; rw [h0, hk0]; omega
  | ⟨1, _⟩ => show win1_0.index t 1 * 128 + 1 * (x 1).val = (k 1).val; rw [h1, hk1]; omega

/-- The feature block at point `t` is rows 2000·t … of the feature array. -/
theorem feat_block1 (c : Dev nD) (t : Fin cfg1.N) (x : S2000x128.Idx) (k : S50000x128.Idx)
    (hk0 : (k 0).val = 2000 * t.val + (x 0).val) (hk1 : (k 1).val = (x 1).val) :
    (iblk1 V c 1 t : Vec Ideal S2000x128 .f32) x = (V c main_v14 : S50000x128.Idx → Elt Ideal .f32) k := by
  obtain ⟨-, -, h0, h1, -⟩ := index1 t
  unfold iblk1
  rw [View.read_apply]
  show V c main_v14 _ = V c main_v14 _
  congr 1
  funext a
  apply Fin.ext
  match a with
  | ⟨0, _⟩ => show win1_1.index t 0 * 2000 + 1 * (x 0).val = (k 0).val; rw [h0, hk0]; omega
  | ⟨1, _⟩ => show win1_1.index t 1 * 128 + 1 * (x 1).val = (k 1).val; rw [h1, hk1]; omega

/-- The layer's two weight blocks and bias block, and each head's weight and bias blocks, are their whole arrays at
    every point. -/
theorem wrel_block1 (c : Dev nD) (t : Fin cfg1.N) :
    (iblk1 V c 2 t : Vec Ideal S128x128 .f32) = (V c main_arg5 : S128x128.Idx → Elt Ideal .f32) := by
  obtain ⟨-, -, -, -, h0, h1, -⟩ := index1 t
  funext x
  unfold iblk1
  rw [View.read_apply]
  show V c main_arg5 _ = V c main_arg5 _
  congr 1
  funext a
  apply Fin.ext
  match a with
  | ⟨0, _⟩ => show win1_2.index t 0 * 128 + 1 * (x 0).val = (x 0).val; rw [h0]; omega
  | ⟨1, _⟩ => show win1_2.index t 1 * 128 + 1 * (x 1).val = (x 1).val; rw [h1]; omega

theorem bias_block1 (c : Dev nD) (t : Fin cfg1.N) :
    (iblk1 V c 3 t : Vec Ideal S128 .f32) = (V c main_arg6 : S128.Idx → Elt Ideal .f32) := by
  obtain ⟨-, -, -, -, -, -, h0, -⟩ := index1 t
  funext x
  unfold iblk1
  rw [View.read_apply]
  show V c main_arg6 _ = V c main_arg6 _
  congr 1
  funext a
  apply Fin.ext
  match a with
  | ⟨0, _⟩ => show win1_3.index t 0 * 128 + 1 * (x 0).val = (x 0).val; rw [h0]; omega

theorem wroot_block1 (c : Dev nD) (t : Fin cfg1.N) :
    (iblk1 V c 4 t : Vec Ideal S128x128 .f32) = (V c main_arg7 : S128x128.Idx → Elt Ideal .f32) := by
  obtain ⟨-, -, -, -, -, -, -, h0, h1, -⟩ := index1 t
  funext x
  unfold iblk1
  rw [View.read_apply]
  show V c main_arg7 _ = V c main_arg7 _
  congr 1
  funext a
  apply Fin.ext
  match a with
  | ⟨0, _⟩ => show win1_4.index t 0 * 128 + 1 * (x 0).val = (x 0).val; rw [h0]; omega
  | ⟨1, _⟩ => show win1_4.index t 1 * 128 + 1 * (x 1).val = (x 1).val; rw [h1]; omega

theorem whead2_block1 (c : Dev nD) (t : Fin cfg1.N) :
    (iblk1 V c 5 t : Vec Ideal S128x2 .f32) = (V c main_arg8 : S128x2.Idx → Elt Ideal .f32) := by
  obtain ⟨-, -, -, -, -, -, -, -, -, h0, h1, -⟩ := index1 t
  funext x
  unfold iblk1
  rw [View.read_apply]
  show V c main_arg8 _ = V c main_arg8 _
  congr 1
  funext a
  apply Fin.ext
  match a with
  | ⟨0, _⟩ => show win1_5.index t 0 * 128 + 1 * (x 0).val = (x 0).val; rw [h0]; omega
  | ⟨1, _⟩ => show win1_5.index t 1 * 2 + 1 * (x 1).val = (x 1).val; rw [h1]; omega

theorem bhead2_block1 (c : Dev nD) (t : Fin cfg1.N) :
    (iblk1 V c 6 t : Vec Ideal S2 .f32) = (V c main_arg9 : S2.Idx → Elt Ideal .f32) := by
  obtain ⟨-, -, -, -, -, -, -, -, -, -, -, h0, -⟩ := index1 t
  funext x
  unfold iblk1
  rw [View.read_apply]
  show V c main_arg9 _ = V c main_arg9 _
  congr 1
  funext a
  apply Fin.ext
  match a with
  | ⟨0, _⟩ => show win1_6.index t 0 * 2 + 1 * (x 0).val = (x 0).val; rw [h0]; omega

theorem whead1_block1 (c : Dev nD) (t : Fin cfg1.N) :
    (iblk1 V c 7 t : Vec Ideal S128x1 .f32) = (V c main_arg10 : S128x1.Idx → Elt Ideal .f32) := by
  obtain ⟨-, -, -, -, -, -, -, -, -, -, -, -, h0, h1, -⟩ := index1 t
  funext x
  unfold iblk1
  rw [View.read_apply]
  show V c main_arg10 _ = V c main_arg10 _
  congr 1
  funext a
  apply Fin.ext
  match a with
  | ⟨0, _⟩ => show win1_7.index t 0 * 128 + 1 * (x 0).val = (x 0).val; rw [h0]; omega
  | ⟨1, _⟩ => show win1_7.index t 1 * 1 + 1 * (x 1).val = (x 1).val; rw [h1]; omega

theorem bhead1_block1 (c : Dev nD) (t : Fin cfg1.N) :
    (iblk1 V c 8 t : Vec Ideal S1 .f32) = (V c main_arg11 : S1.Idx → Elt Ideal .f32) := by
  obtain ⟨-, -, -, -, -, -, -, -, -, -, -, -, -, -, h0, -⟩ := index1 t
  funext x
  unfold iblk1
  rw [View.read_apply]
  show V c main_arg11 _ = V c main_arg11 _
  congr 1
  funext a
  apply Fin.ext
  match a with
  | ⟨0, _⟩ => show win1_8.index t 0 * 1 + 1 * (x 0).val = (x 0).val; rw [h0]; omega

/-- The layer of the whole arrays the region finds: what both heads are applied to. -/
abbrev layer1 (c : Dev nD) : S50000x128.Idx → Elt Ideal .f32 :=
  conv (n := 50000) (V c main_v24) (V c main_v14) (V c main_arg5) (V c main_arg7) (V c main_arg6)

/-- What point `t` writes back to the two-column result is block `t` of the two-column head of that layer. -/
theorem flushed1_9 (c : Dev nD) (t : Fin cfg1.N) :
    (dat1 V c).flushed 9 t = ((cfg1.win 9).blk t).view.read (Elt Ideal)
      (head (n := 50000) (k := 2) (layer1 V c) (V c main_arg8) (V c main_arg9)) := by
  show (cfg1.win 9).cut (grid1.coords t) ((dat1 V c).after 9 t) = _
  rw [after1_9]
  unfold out1_9
  rw [View.canon_unit_zero zeros2]
  simp only [View.ld_unit_zero (S := S2000x128) zeros2, View.ld_unit_zero (S := S128x128) zeros2,
    View.ld_unit_zero (S := S128) zeros1, View.ld_unit_zero (S := S128x2) zeros2, View.ld_unit_zero (S := S2) zeros1]
  rw [pay_head2, wrel_block1, bias_block1, wroot_block1, whead2_block1, bhead2_block1]
  obtain ⟨-, -, -, -, -, -, -, -, -, -, -, -, -, -, -, h0, h1, -⟩ := index1 t
  funext j
  show headAt (n := 2000) (k := 2)
      (conv (n := 2000) (iblk1 V c 0 t) (iblk1 V c 1 t) (V c main_arg5) (V c main_arg7) (V c main_arg6))
      (V c main_arg8) (V c main_arg9) (j 0) (j 1)
    = headAt (n := 50000) (k := 2) (layer1 V c) (V c main_arg8) (V c main_arg9)
        ((((cfg1.win 9).blk t).view.emb j) 0) ((((cfg1.win 9).blk t).view.emb j) 1)
  have hrow : ((((cfg1.win 9).blk t).view.emb j) 0).val = 2000 * t.val + (j 0).val := by
    show win1_9.index t 0 * 2000 + 1 * (j 0).val = 2000 * t.val + (j 0).val
    rw [h0]; omega
  have hcol : ((((cfg1.win 9).blk t).view.emb j) 1).val = (j 1).val := by
    show win1_9.index t 1 * 2 + 1 * (j 1).val = (j 1).val
    rw [h1]; omega
  have ea : ∀ d : Fin 128, (iblk1 V c 0 t : Vec Ideal S2000x128 .f32) (ix2 (j 0) d)
      = (V c main_v24 : S50000x128.Idx → Elt Ideal .f32) (ix2 ((((cfg1.win 9).blk t).view.emb j) 0) d) :=
    fun d => agg_block1 V c t _ _ hrow rfl
  have ef : ∀ d : Fin 128, (iblk1 V c 1 t : Vec Ideal S2000x128 .f32) (ix2 (j 0) d)
      = (V c main_v14 : S50000x128.Idx → Elt Ideal .f32) (ix2 ((((cfg1.win 9).blk t).view.emb j) 0) d) :=
    fun d => feat_block1 V c t _ _ hrow rfl
  have hq : (j 1 : Fin 2) = (((cfg1.win 9).blk t).view.emb j) 1 := Fin.ext hcol.symm
  have hc : ∀ e : Fin 128,
      conv (n := 2000) (iblk1 V c 0 t) (iblk1 V c 1 t) (V c main_arg5) (V c main_arg7) (V c main_arg6) (ix2 (j 0) e)
        = layer1 V c (ix2 ((((cfg1.win 9).blk t).view.emb j) 0) e) := by
    intro e
    show convAt (n := 2000) (iblk1 V c 0 t) (iblk1 V c 1 t) (V c main_arg5) (V c main_arg7) (V c main_arg6) (j 0) e
      = convAt (n := 50000) (V c main_v24) (V c main_v14) (V c main_arg5) (V c main_arg7) (V c main_arg6)
          ((((cfg1.win 9).blk t).view.emb j) 0) e
    unfold convAt
    simp only [ea, ef]
  unfold headAt
  simp only [hc, hq]

/-- An index of the two-column result is in point `t`'s block iff each coordinate is in the block's range. -/
theorem mem_block1_9 (t : Fin cfg1.N) (i : S50000x2.Idx) :
    i ∈ ((cfg1.win 9).blk t).view.set ↔ ∀ a : Fin 2, win1_9.index t a * S2000x2.size a ≤ (i a).val
      ∧ (i a).val < win1_9.index t a * S2000x2.size a + S2000x2.size a := by
  show i ∈ ((View.whole main_v25_0).slice (win1_9.rect t)).set ↔ _
  rw [View.set_slice_whole, Rect.mem_set_unit]
  exact Iff.rfl

/-- Row `r` of the two-column result is in the block of point `r / 2000`: the 25 blocks tile it. -/
theorem cover1_9 (i : S50000x2.Idx) :
    ∃ t : Fin cfg1.N, (cfg1.win 9).flush t = true ∧ i ∈ ((cfg1.win 9).blk t).view.set := by
  have hi0 : (i 0).val < 50000 := (i 0).isLt
  have hi1 : (i 1).val < 2 := (i 1).isLt
  have hN : cfg1.N = 25 := N_1
  have ht : (i 0).val / 2000 < cfg1.N := by rw [hN]; omega
  obtain ⟨-, -, -, -, -, -, -, -, -, -, -, -, -, -, -, h0, h1, -⟩ := index1 ⟨(i 0).val / 2000, ht⟩
  refine ⟨⟨(i 0).val / 2000, ht⟩, flush1_9 _, ?_⟩
  rw [mem_block1_9]
  intro a
  match a with
  | ⟨0, _⟩ =>
    show win1_9.index ⟨(i 0).val / 2000, ht⟩ 0 * 2000 ≤ (i 0).val
      ∧ (i 0).val < win1_9.index ⟨(i 0).val / 2000, ht⟩ 0 * 2000 + 2000
    rw [h0]
    show (i 0).val / 2000 * 2000 ≤ (i 0).val ∧ (i 0).val < (i 0).val / 2000 * 2000 + 2000
    omega
  | ⟨1, _⟩ =>
    show win1_9.index ⟨(i 0).val / 2000, ht⟩ 1 * 2 ≤ (i 1).val
      ∧ (i 1).val < win1_9.index ⟨(i 0).val / 2000, ht⟩ 1 * 2 + 2
    rw [h1]
    omega

/-- What point `t` writes back to the one-column result is block `t` of the one-column head of that layer. -/
theorem flushed1_10 (c : Dev nD) (t : Fin cfg1.N) :
    (dat1 V c).flushed 10 t = ((cfg1.win 10).blk t).view.read (Elt Ideal)
      (head (n := 50000) (k := 1) (layer1 V c) (V c main_arg10) (V c main_arg11)) := by
  show (cfg1.win 10).cut (grid1.coords t) ((dat1 V c).after 10 t) = _
  rw [after1_10]
  unfold out1_10
  rw [View.canon_unit_zero zeros2]
  simp only [View.ld_unit_zero (S := S2000x128) zeros2, View.ld_unit_zero (S := S128x128) zeros2,
    View.ld_unit_zero (S := S128) zeros1, View.ld_unit_zero (S := S128x1) zeros2, View.ld_unit_zero (S := S1) zeros1]
  rw [pay_head1, wrel_block1, bias_block1, wroot_block1, whead1_block1, bhead1_block1]
  obtain ⟨-, -, -, -, -, -, -, -, -, -, -, -, -, -, -, -, -, h0, h1⟩ := index1 t
  funext j
  show headAt (n := 2000) (k := 1)
      (conv (n := 2000) (iblk1 V c 0 t) (iblk1 V c 1 t) (V c main_arg5) (V c main_arg7) (V c main_arg6))
      (V c main_arg10) (V c main_arg11) (j 0) (j 1)
    = headAt (n := 50000) (k := 1) (layer1 V c) (V c main_arg10) (V c main_arg11)
        ((((cfg1.win 10).blk t).view.emb j) 0) ((((cfg1.win 10).blk t).view.emb j) 1)
  have hrow : ((((cfg1.win 10).blk t).view.emb j) 0).val = 2000 * t.val + (j 0).val := by
    show win1_10.index t 0 * 2000 + 1 * (j 0).val = 2000 * t.val + (j 0).val
    rw [h0]; omega
  have hcol : ((((cfg1.win 10).blk t).view.emb j) 1).val = (j 1).val := by
    show win1_10.index t 1 * 1 + 1 * (j 1).val = (j 1).val
    rw [h1]; omega
  have ea : ∀ d : Fin 128, (iblk1 V c 0 t : Vec Ideal S2000x128 .f32) (ix2 (j 0) d)
      = (V c main_v24 : S50000x128.Idx → Elt Ideal .f32) (ix2 ((((cfg1.win 10).blk t).view.emb j) 0) d) :=
    fun d => agg_block1 V c t _ _ hrow rfl
  have ef : ∀ d : Fin 128, (iblk1 V c 1 t : Vec Ideal S2000x128 .f32) (ix2 (j 0) d)
      = (V c main_v14 : S50000x128.Idx → Elt Ideal .f32) (ix2 ((((cfg1.win 10).blk t).view.emb j) 0) d) :=
    fun d => feat_block1 V c t _ _ hrow rfl
  have hq : (j 1 : Fin 1) = (((cfg1.win 10).blk t).view.emb j) 1 := Fin.ext hcol.symm
  have hc : ∀ e : Fin 128,
      conv (n := 2000) (iblk1 V c 0 t) (iblk1 V c 1 t) (V c main_arg5) (V c main_arg7) (V c main_arg6) (ix2 (j 0) e)
        = layer1 V c (ix2 ((((cfg1.win 10).blk t).view.emb j) 0) e) := by
    intro e
    show convAt (n := 2000) (iblk1 V c 0 t) (iblk1 V c 1 t) (V c main_arg5) (V c main_arg7) (V c main_arg6) (j 0) e
      = convAt (n := 50000) (V c main_v24) (V c main_v14) (V c main_arg5) (V c main_arg7) (V c main_arg6)
          ((((cfg1.win 10).blk t).view.emb j) 0) e
    unfold convAt
    simp only [ea, ef]
  unfold headAt
  simp only [hc, hq]

/-- An index of the one-column result is in point `t`'s block iff each coordinate is in the block's range. -/
theorem mem_block1_10 (t : Fin cfg1.N) (i : S50000x1.Idx) :
    i ∈ ((cfg1.win 10).blk t).view.set ↔ ∀ a : Fin 2, win1_10.index t a * S2000x1.size a ≤ (i a).val
      ∧ (i a).val < win1_10.index t a * S2000x1.size a + S2000x1.size a := by
  show i ∈ ((View.whole main_v25_1).slice (win1_10.rect t)).set ↔ _
  rw [View.set_slice_whole, Rect.mem_set_unit]
  exact Iff.rfl

/-- Row `r` of the one-column result is in the block of point `r / 2000`: the 25 blocks tile it. -/
theorem cover1_10 (i : S50000x1.Idx) :
    ∃ t : Fin cfg1.N, (cfg1.win 10).flush t = true ∧ i ∈ ((cfg1.win 10).blk t).view.set := by
  have hi0 : (i 0).val < 50000 := (i 0).isLt
  have hi1 : (i 1).val < 1 := (i 1).isLt
  have hN : cfg1.N = 25 := N_1
  have ht : (i 0).val / 2000 < cfg1.N := by rw [hN]; omega
  obtain ⟨-, -, -, -, -, -, -, -, -, -, -, -, -, -, -, -, -, h0, h1⟩ := index1 ⟨(i 0).val / 2000, ht⟩
  refine ⟨⟨(i 0).val / 2000, ht⟩, flush1_10 _, ?_⟩
  rw [mem_block1_10]
  intro a
  match a with
  | ⟨0, _⟩ =>
    show win1_10.index ⟨(i 0).val / 2000, ht⟩ 0 * 2000 ≤ (i 0).val
      ∧ (i 0).val < win1_10.index ⟨(i 0).val / 2000, ht⟩ 0 * 2000 + 2000
    rw [h0]
    show (i 0).val / 2000 * 2000 ≤ (i 0).val ∧ (i 0).val < (i 0).val / 2000 * 2000 + 2000
    omega
  | ⟨1, _⟩ =>
    show win1_10.index ⟨(i 0).val / 2000, ht⟩ 1 * 1 ≤ (i 1).val
      ∧ (i 1).val < win1_10.index ⟨(i 0).val / 2000, ht⟩ 1 * 1 + 1
    rw [h1]
    omega

/-- The second region leaves in its two-column result array the two-column head of the layer of the arrays it found. -/
theorem final1_9 (c : Dev nD) : (dat1 V c).arrAt 9 cfg1.N = head (n := 50000) (k := 2) (layer1 V c) (V c main_arg8) (V c main_arg9) :=
  (dat1 V c).arrAt_eq_of_cover 9 (head (n := 50000) (k := 2) (layer1 V c) (V c main_arg8) (V c main_arg9))
    (fun t _ => flushed1_9 V c t) cover1_9

/-- The second region leaves in its one-column result array the one-column head of the same layer. -/
theorem final1_10 (c : Dev nD) : (dat1 V c).arrAt 10 cfg1.N = head (n := 50000) (k := 1) (layer1 V c) (V c main_arg10) (V c main_arg11) :=
  (dat1 V c).arrAt_eq_of_cover 10 (head (n := 50000) (k := 1) (layer1 V c) (V c main_arg10) (V c main_arg11))
    (fun t _ => flushed1_10 V c t) cover1_10

end Cert.KernelSide

end
-- ==== Proof.KernelValue.lean ====
/-
  The idealized kernel's run with its results as functions of the arguments: the second region leaves in its two
  result arrays the two heads of the second layer, whose inputs are the first layer's output and its neighbour sums.
-/
import proofs.«148136_j81363860456051_1_alg».proof.Proof.KernelRun
import proofs.«148136_j81363860456051_1_alg».proof.Proof.Fold
import proofs.«148136_j81363860456051_1_alg».proof.Proof.Region1

noncomputable section

namespace Cert.KernelSide

open Idealize.ShloMosaic Idealize.ShloMosaic.TcCoe Idealize.SL.Sem Idealize.ShloMosaic.ValueIdx
open Idealize.ShloMosaic.Pipeline (Dat)
open Cert.KernelIdeal Cert.KernelIdeal.Gen Cert.GraphConv

variable (m : (ℓ : Loc nD τ sig) → Buf (Elt Ideal) ℓ) (ρ : Dev nD → PrngReg)

/-- The network's two outputs on the launch contents of the arguments. -/
abbrev outTwo (c : Dev nD) : Buf (Elt Ideal) ((c.tc : Thread nD τ).loc main_v25_0) :=
  output (k := 2) neighbourSumK (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3)) (m ((c.tc : Thread nD τ).loc main_arg5)) (m ((c.tc : Thread nD τ).loc main_arg7)) (m ((c.tc : Thread nD τ).loc main_arg6)) (m ((c.tc : Thread nD τ).loc main_arg8)) (m ((c.tc : Thread nD τ).loc main_arg9))
abbrev outOne (c : Dev nD) : Buf (Elt Ideal) ((c.tc : Thread nD τ).loc main_v25_1) :=
  output (k := 1) neighbourSumK (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3)) (m ((c.tc : Thread nD τ).loc main_arg5)) (m ((c.tc : Thread nD τ).loc main_arg7)) (m ((c.tc : Thread nD τ).loc main_arg6)) (m ((c.tc : Thread nD τ).loc main_arg10)) (m ((c.tc : Thread nD τ).loc main_arg11))

/-- The second region's hidden layer is the network's second layer. -/
theorem layer1_eq (c : Dev nD) : layer1 (V3 m ρ) c
    = hidden2 neighbourSumK (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3)) (m ((c.tc : Thread nD τ).loc main_arg5)) (m ((c.tc : Thread nD τ).loc main_arg7)) (m ((c.tc : Thread nD τ).loc main_arg6)) := by
  show conv (W3 m ρ c (Proc.devRef .tc main_v24)) (W3 m ρ c (Proc.devRef .tc main_v14)) (W3 m ρ c (Proc.devRef .tc main_arg5))
      (W3 m ρ c (Proc.devRef .tc main_arg7)) (W3 m ρ c (Proc.devRef .tc main_arg6)) = _
  rw [agg2_W3, hidden1_W3, arg5_W3, arg7_W3, arg6_W3]
  rfl

/-- The first result array ends at the two-column head of the second layer. -/
theorem result_two (c : Dev nD) : W4 m ρ c (Proc.devRef .tc main_v25_0) = outTwo m c := by
  refine (W4_arr m ρ c 9).trans ((final1_9 (V3 m ρ) c).trans ?_)
  rw [layer1_eq]
  show head _ (W3 m ρ c (Proc.devRef .tc main_arg8)) (W3 m ρ c (Proc.devRef .tc main_arg9)) = _
  rw [arg8_W3, arg9_W3]
  rfl

/-- The second result array ends at the one-column head of the second layer. -/
theorem result_one (c : Dev nD) : W4 m ρ c (Proc.devRef .tc main_v25_1) = outOne m c := by
  refine (W4_arr m ρ c 10).trans ((final1_10 (V3 m ρ) c).trans ?_)
  rw [layer1_eq]
  show head _ (W3 m ρ c (Proc.devRef .tc main_arg10)) (W3 m ρ c (Proc.devRef .tc main_arg11)) = _
  rw [arg10_W3, arg11_W3]
  rfl

/-- The run: both results at the network's outputs, the arguments as launched. -/
theorem run : θ_run defs (onTc (τ := τ) (main (F := Ideal))) ⟨m, fun _ => 0, ρ⟩ (fun r => ∀ c : Dev nD,
      r.2.mem ((c.tc : Thread nD τ).loc main_v25_0) = outTwo m c
      ∧ r.2.mem ((c.tc : Thread nD τ).loc main_v25_1) = outOne m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result_two m ρ c), (h c).2.1.trans (result_one m ρ c), (h c).2.2⟩)
    (run_results m ρ)

end Cert.KernelSide

end
-- ==== Proof.LibHostRead.lean ====
/-
  Reads of host operations at an index, at the exact extended-real values, for rank-2 arrays: a `dot_general`
  that contracts the second axis of its left operand with the first axis of its right operand is, at entry
  `(p, q)`, the sum over the contracted coordinate of the products; a bias of length `b` broadcast first to a row
  `[1, b]` and then down `a` rows reads its own entry `q`; a scalar broadcast to any shape reads the scalar; a
  slice of `w` columns starting at column `o` reads column `o + q`; and the word of the float one is the real one.
-/
import Idealize.ShloMosaic.PureOps.Ideal.Laws
import Idealize.ShloMosaic.Lib.Pipeline.Value
import Idealize.ShloMosaic.Lib.ValueIdx

noncomputable section

open scoped BigOperators

namespace Cert.HostRead

open Idealize.ShloMosaic Idealize.ShloMosaic.ValueIdx

/-- A host product contracting axis 1 of the left operand with axis 0 of the right one, read at `(p, q)`. -/
theorem dotGeneral_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    Host.dotGeneral D prec x w (ix2 p q) = ∑ d : Fin k, x (ix2 p d) * w (ix2 d q) := by
  obtain ⟨lc, rc, ln, rn, lb, rb, wf⟩ := D
  dsimp only at hlc hrc hln hrn hlb hrb
  subst hlc hrc hln hrn hlb hrb
  refine (Ideal.dotGeneral_apply _ prec .single x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- A bias broadcast to a row and then down the rows reads its own entry. -/
theorem bias_rows_apply {α : Type} {a b : ℕ} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (p : Fin a) (q : Fin b) :
    broadcastInDim ⟨2, ![a, b]⟩ ![0, 1] h2 (broadcastInDim ⟨2, ![1, b]⟩ ![1] h1 x) (ix2 p q) = x (ix1 q) := by
  unfold broadcastInDim
  refine congrArg x (funext fun ax => Fin.ext ?_)
  match ax with
  | ⟨0, _⟩ =>
    by_cases hb : b = 1
    · subst hb; simp [ix1, ix2]
    · simp [ix1, ix2, hb]; rfl

/-- A scalar broadcast to any shape reads the scalar. -/
theorem scalar_bcast_apply {α : Type} {t : Shape} (h : (⟨0, ![]⟩ : Shape).BroadcastsInDim t ![])
    (x : (⟨0, ![]⟩ : Shape).Idx → α) (j : t.Idx) : broadcastInDim t ![] h x j = x ix0 := by
  unfold broadcastInDim
  exact congrArg x (funext fun ax => ax.elim0)

/-- A slice of `w` columns from column `o` on, all rows, reads column `o + q`. -/
theorem cols_apply {α : Type} {a n w : ℕ} (o : ℕ) (h : (⟨2, ![a, n]⟩ : Shape).Slices ![0, o] ⟨2, ![a, w]⟩)
    (x : (⟨2, ![a, n]⟩ : Shape).Idx → α) (p : Fin a) (q : Fin w) (ho : o + q.val < n) :
    extractStridedSlice ⟨2, ![a, w]⟩ ![0, o] x h (ix2 p q) = x (ix2 p ⟨o + q.val, ho⟩) := by
  refine extractStridedSlice_apply ![0, o] x h (ix2 p q) (ix2 p ⟨o + q.val, ho⟩) fun ax => ?_
  match ax with
  | ⟨0, _⟩ => show p.val = 0 + p.val; omega
  | ⟨1, _⟩ => rfl

/-- The word of the float one denotes the real one. -/
theorem ofBits_one_f32 : Ideal.ofBits .f32 0x3F800000#32 = 1 := by
  simp [Ideal.ofBits, Ideal.ieee, -EReal.coe_mul]
  norm_num

end Cert.HostRead

end
-- ==== Proof.RefValue.lean ====
/-
  The reference's two results are the network's two outputs: each of its layers is, entry by entry, the layer of the
  specification (the bias and the second product added in the other order), each of its heads the head of the
  specification, and its neighbour sum is carried as one unopened function.
-/
import proofs.«148136_j81363860456051_1_alg».proof.Proof.Gen.ReferenceIdeal.Run
import proofs.«148136_j81363860456051_1_alg».proof.Proof.Spec
import proofs.«148136_j81363860456051_1_alg».proof.Proof.LibHostRead

noncomputable section

open scoped BigOperators

namespace Cert.RefSide

open Idealize.ShloMosaic Idealize.ShloMosaic.TcCoe Idealize.ShloMosaic.ValueIdx Cert.ReferenceIdeal Cert.ReferenceIdeal.Gen
  Cert.ReferenceIdeal.Value Cert.GraphConv

/-- The reference's neighbour sum: the rows of `h` named by the edges' sources (a negative source wrapped by the
    number of nodes) added into the rows named by the edges' destinations, from zero. -/
def neighbourSum (h : Nodes) (ei : Edges) : Nodes :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0
      (shapeCast _ (extractStridedSlice S1x600000 ![1, 0] ei slices_S2x600000_S1x600000_1_0) shapeCasts_S1x600000_S600000))
    (Host.gather gather_S50000x128_S600000x1_S600000x128_1_0_n_n_0_1_1128 h
      (broadcastInDim S600000x1 ![0] bcast_S600000_S600000x1_0
        (select
          (cmpi .slt (shapeCast _ (extractStridedSlice S1x600000 ![0, 0] ei slices_S2x600000_S1x600000_0_0) shapeCasts_S1x600000_S600000)
            (broadcastInDim S600000 ![] bcast_S_S600000 (constantI S_ 32 0#32)))
          (addi (shapeCast _ (extractStridedSlice S1x600000 ![0, 0] ei slices_S2x600000_S1x600000_0_0) shapeCasts_S1x600000_S600000)
            (broadcastInDim S600000 ![] bcast_S_S600000 (constantI S_ 32 50000#32)))
          (shapeCast _ (extractStridedSlice S1x600000 ![0, 0] ei slices_S2x600000_S1x600000_0_0) shapeCasts_S1x600000_S600000))))

/-- The reference's layer as its operations: the first product, the bias broadcast down the rows, the second product,
    and the larger of the sum and a zero splat. -/
def convBiasBetween (agg h : Nodes) (wrel wroot : FVec Ideal S128x128 .f32) (b : FVec Ideal S128 .f32) : Nodes :=
  maximumf
    (addf
      (addf (Host.dotGeneral (F := Ideal) dot_S50000x128_S128x128_S50000x128_1_0_0_1_n_n none agg wrel)
        (broadcastInDim S50000x128 ![0, 1] bcast_S1x128_S50000x128_0_1 (broadcastInDim S1x128 ![1] bcast_S128_S1x128_1 b)))
      (Host.dotGeneral (F := Ideal) dot_S50000x128_S128x128_S50000x128_1_0_0_1_n_n none h wroot))
    (broadcastInDim S50000x128 ![] bcast_S_S50000x128 (constant (F := Ideal) S_ .f32 0x00000000#32))

/-- Entry by entry the reference's layer is the specification's: the same three summands, the bias and the second
    product in the other order. -/
theorem convBiasBetween_eq (agg h : Nodes) (wrel wroot : FVec Ideal S128x128 .f32) (b : FVec Ideal S128 .f32) :
    convBiasBetween agg h wrel wroot b = conv agg h wrel wroot b := by
  funext i
  obtain ⟨p, q, rfl⟩ : ∃ p q, i = ix2 p q := ⟨i 0, i 1, eq_ix2 i⟩
  unfold convBiasBetween
  refine (maximumf_apply _ _ _).trans ?_
  refine (congrArg₂ max ?_ ?_).trans (conv_apply agg h wrel wroot b p q).symm
  · refine (addf_apply _ _ _).trans ?_
    refine (congrArg₂ (· + ·) ((addf_apply _ _ _).trans (congrArg₂ (· + ·)
      (Cert.HostRead.dotGeneral_ix2_apply _ rfl rfl rfl rfl rfl rfl none agg wrel p q)
      (Cert.HostRead.bias_rows_apply _ _ b p q)))
      (Cert.HostRead.dotGeneral_ix2_apply _ rfl rfl rfl rfl rfl rfl none h wroot p q)).trans ?_
    exact add_right_comm _ _ _
  · exact (Cert.HostRead.scalar_bcast_apply _ _ _).trans (constant_apply _ _)

/-- The reference's two-column head as its operations. -/
def headTwo (h : Nodes) (w : FVec Ideal S128x2 .f32) (b : FVec Ideal S2 .f32) : FVec Ideal S50000x2 .f32 :=
  addf (Host.dotGeneral (F := Ideal) dot_S50000x128_S128x2_S50000x2_1_0_0_1_n_n none h w)
    (broadcastInDim S50000x2 ![0, 1] bcast_S1x2_S50000x2_0_1 (broadcastInDim S1x2 ![1] bcast_S2_S1x2_1 b))

theorem headTwo_eq (h : Nodes) (w : FVec Ideal S128x2 .f32) (b : FVec Ideal S2 .f32) :
    headTwo h w b = head h w b := by
  funext i
  obtain ⟨p, q, rfl⟩ : ∃ p q, i = ix2 p q := ⟨i 0, i 1, eq_ix2 i⟩
  unfold headTwo
  refine (addf_apply _ _ _).trans ?_
  exact (congrArg₂ (· + ·) (Cert.HostRead.dotGeneral_ix2_apply _ rfl rfl rfl rfl rfl rfl none h w p q)
    (Cert.HostRead.bias_rows_apply _ _ b p q)).trans (head_apply h w b p q).symm

/-- The reference's one-column head as its operations. -/
def headOne (h : Nodes) (w : FVec Ideal S128x1 .f32) (b : FVec Ideal S1 .f32) : FVec Ideal S50000x1 .f32 :=
  addf (Host.dotGeneral (F := Ideal) dot_S50000x128_S128x1_S50000x1_1_0_0_1_n_n none h w)
    (broadcastInDim S50000x1 ![0, 1] bcast_S1x1_S50000x1_0_1 (broadcastInDim S1x1 ![1] bcast_S1_S1x1_1 b))

theorem headOne_eq (h : Nodes) (w : FVec Ideal S128x1 .f32) (b : FVec Ideal S1 .f32) :
    headOne h w b = head h w b := by
  funext i
  obtain ⟨p, q, rfl⟩ : ∃ p q, i = ix2 p q := ⟨i 0, i 1, eq_ix2 i⟩
  unfold headOne
  refine (addf_apply _ _ _).trans ?_
  exact (congrArg₂ (· + ·) (Cert.HostRead.dotGeneral_ix2_apply _ rfl rfl rfl rfl rfl rfl none h w p q)
    (Cert.HostRead.bias_rows_apply _ _ b p q)).trans (head_apply h w b p q).symm

/-- The reference's first result is the network's output through the two-column head. -/
theorem out0_eq (m : (ℓ : Loc nD τ sig) → Buf (Elt Ideal) ℓ) (c : Dev nD) :
    res_main_v41 (F := Ideal) m c
      = output (k := 2) neighbourSum (m ((c.tc : Thread nD τ).loc main_arg0)) (m ((c.tc : Thread nD τ).loc main_arg1))
          (m ((c.tc : Thread nD τ).loc main_arg2)) (m ((c.tc : Thread nD τ).loc main_arg4)) (m ((c.tc : Thread nD τ).loc main_arg3))
          (m ((c.tc : Thread nD τ).loc main_arg5)) (m ((c.tc : Thread nD τ).loc main_arg7)) (m ((c.tc : Thread nD τ).loc main_arg6))
          (m ((c.tc : Thread nD τ).loc main_arg8)) (m ((c.tc : Thread nD τ).loc main_arg9)) := by
  have e : res_main_v41 (F := Ideal) m c = headTwo (convBiasBetween (neighbourSum (convBiasBetween (neighbourSum (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg4)) (m ((c.tc : Thread nD τ).loc main_arg3))) (m ((c.tc : Thread nD τ).loc main_arg1))) (convBiasBetween (neighbourSum (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg4)) (m ((c.tc : Thread nD τ).loc main_arg3))) (m ((c.tc : Thread nD τ).loc main_arg5)) (m ((c.tc : Thread nD τ).loc main_arg7)) (m ((c.tc : Thread nD τ).loc main_arg6))) (m ((c.tc : Thread nD τ).loc main_arg8)) (m ((c.tc : Thread nD τ).loc main_arg9)) := by
    unfold res_main_v41 headTwo convBiasBetween neighbourSum
    rfl
  refine e.trans ?_
  simp only [convBiasBetween_eq, headTwo_eq]
  rfl

/-- The reference's second result is the network's output through the one-column head. -/
theorem out1_eq (m : (ℓ : Loc nD τ sig) → Buf (Elt Ideal) ℓ) (c : Dev nD) :
    res_main_v45 (F := Ideal) m c
      = output (k := 1) neighbourSum (m ((c.tc : Thread nD τ).loc main_arg0)) (m ((c.tc : Thread nD τ).loc main_arg1))
          (m ((c.tc : Thread nD τ).loc main_arg2)) (m ((c.tc : Thread nD τ).loc main_arg4)) (m ((c.tc : Thread nD τ).loc main_arg3))
          (m ((c.tc : Thread nD τ).loc main_arg5)) (m ((c.tc : Thread nD τ).loc main_arg7)) (m ((c.tc : Thread nD τ).loc main_arg6))
          (m ((c.tc : Thread nD τ).loc main_arg10)) (m ((c.tc : Thread nD τ).loc main_arg11)) := by
  have e : res_main_v45 (F := Ideal) m c = headOne (convBiasBetween (neighbourSum (convBiasBetween (neighbourSum (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg4)) (m ((c.tc : Thread nD τ).loc main_arg3))) (m ((c.tc : Thread nD τ).loc main_arg1))) (convBiasBetween (neighbourSum (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg4)) (m ((c.tc : Thread nD τ).loc main_arg3))) (m ((c.tc : Thread nD τ).loc main_arg5)) (m ((c.tc : Thread nD τ).loc main_arg7)) (m ((c.tc : Thread nD τ).loc main_arg6))) (m ((c.tc : Thread nD τ).loc main_arg10)) (m ((c.tc : Thread nD τ).loc main_arg11)) := by
    unfold res_main_v45 headOne convBiasBetween neighbourSum
    rfl
  refine e.trans ?_
  simp only [convBiasBetween_eq, headOne_eq]
  rfl

end Cert.RefSide

end
-- ==== Proof.lean ====
/-
  The certificate's five claims for two graph-convolution layers with two linear heads.

  The kernel program forms the neighbour sums of the node features on the host, computes one layer
      relu(agg · W_rel + h · W_root + b)
  in a first kernel region over blocks of 2000 rows, forms the neighbour sums of that layer's output on the host, and in
  a second region computes the second layer and both heads  h₂ · W + b.  The reference computes the same network with
  whole-array products, adding the bias between the two products instead of after them.  On the extended reals the two
  agree entry by entry: a change of float format is the identity, a product into a zero accumulator is the plain sum of
  products, and addition is commutative and associative (no finiteness is needed).  The neighbour sum is the same host
  computation in both programs and is never opened.
  The three frames are the generated ones (the reference's from its generated run); the idealization rewrote nothing.
-/
import proofs.«148136_j81363860456051_1_alg».proof.Defs
import proofs.«148136_j81363860456051_1_alg».proof.Proof.Gen.Kernel
import proofs.«148136_j81363860456051_1_alg».proof.Proof.Gen.Kernel.Frame
import proofs.«148136_j81363860456051_1_alg».proof.Proof.Gen.KernelIdeal
import proofs.«148136_j81363860456051_1_alg».proof.Proof.Gen.KernelIdeal.Frame
import proofs.«148136_j81363860456051_1_alg».proof.Proof.Gen.ReferenceIdeal
import proofs.«148136_j81363860456051_1_alg».proof.Proof.Gen.ReferenceIdeal.Run
import proofs.«148136_j81363860456051_1_alg».proof.Proof.Gen.Pre_finite_inputs
import proofs.«148136_j81363860456051_1_alg».proof.Proof.KernelValue
import proofs.«148136_j81363860456051_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2) (Cert.ReferenceIdeal.Value.run (F := Ideal) m ρ)

/-- Both programs form the neighbour sums by the same host operations. -/
theorem neighbourSum_same : Cert.KernelSide.neighbourSumK = Cert.RefSide.neighbourSum := rfl

/-- From memories agreeing on the arguments both programs end with the network's two outputs. -/
theorem algebraic : Cert.algebraic_KernelIdeal_ReferenceIdeal := by
  intro m ρ m' ρ' _ hagree
  refine ⟨_, _, Cert.KernelSide.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.RefSide.out0_eq, (hagree c).1, (hagree c).2.1, (hagree c).2.2.1, (hagree c).2.2.2.2.1, (hagree c).2.2.2.1, (hagree c).2.2.2.2.2.1, (hagree c).2.2.2.2.2.2.2.1, (hagree c).2.2.2.2.2.2.1, (hagree c).2.2.2.2.2.2.2.2.1, (hagree c).2.2.2.2.2.2.2.2.2.1, ← neighbourSum_same]
  · rw [Cert.RefSide.out1_eq, (hagree c).1, (hagree c).2.1, (hagree c).2.2.1, (hagree c).2.2.2.2.1, (hagree c).2.2.2.1, (hagree c).2.2.2.2.2.1, (hagree c).2.2.2.2.2.2.2.1, (hagree c).2.2.2.2.2.2.1, (hagree c).2.2.2.2.2.2.2.2.2.2.1, (hagree c).2.2.2.2.2.2.2.2.2.2.2, ← neighbourSum_same]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
